-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1280x2048 : Shape := ⟨2, ![1280, 2048]⟩
abbrev S64x1024x2048 : Shape := ⟨3, ![64, 1024, 2048]⟩
abbrev S_ : Shape := ⟨0, ![]⟩

class Facts : Prop where
  bcast_S_S1280x2048 : S_.BroadcastsInDim S1280x2048 (![] : Fin 0 → Fin S1280x2048.rank)
  reducesTo_S1280x2048_S_d0_1 : S1280x2048.ReducesTo [0, 1] S_
  h_S_ : 0 < S_.numel
  bcast_S_S64x1024x2048 : S_.BroadcastsInDim S64x1024x2048 (![] : Fin 0 → Fin S64x1024x2048.rank)
  reducesTo_S64x1024x2048_S_d0_1_2 : S64x1024x2048.ReducesTo [0, 1, 2] S_

variable [Facts]

def fn {F : FTy → Type} [FloatOps F] (main_arg0 : FVec F S1280x2048 .f32) (main_arg1 : FVec F S64x1024x2048 .f32) : IVec S_ 1 :=
  let main_v0 : FVec F S1280x2048 .f32 := Host.absf main_arg0
  let main_cst : FVec F S_ .f32 := constant S_ .f32 0x7F800000#32
  let main_v1 : FVec F S1280x2048 .f32 := broadcastInDim S1280x2048 ![] bcast_S_S1280x2048 main_cst
  let main_v2 : IVec S1280x2048 1 := cmpf .olt main_v0 main_v1
  let main_c : IVec S_ 1 := constantI S_ 1 1#1
  let main_v3 : IVec S_ 1 := (fun x v => Host.reduce IntOp.andi x v reducesTo_S1280x2048_S_d0_1 h_S_) main_v2 main_c
  let main_v4 : FVec F S64x1024x2048 .f32 := Host.absf main_arg1
  let main_cst_0 : FVec F S_ .f32 := constant S_ .f32 0x7F800000#32
  let main_v5 : FVec F S64x1024x2048 .f32 := broadcastInDim S64x1024x2048 ![] bcast_S_S64x1024x2048 main_cst_0
  let main_v6 : IVec S64x1024x2048 1 := cmpf .olt main_v4 main_v5
  let main_c_1 : IVec S_ 1 := constantI S_ 1 1#1
  let main_v7 : IVec S_ 1 := (fun x v => Host.reduce IntOp.andi x v reducesTo_S64x1024x2048_S_d0_1_2 h_S_) main_v6 main_c_1
  let main_v8 : IVec S_ 1 := andi main_v3 main_v7
  main_v8
-- ==== Kernel.lean ====
abbrev S1280x2048 : Shape := ⟨2, ![1280, 2048]⟩
abbrev S64x1024x2048 : Shape := ⟨3, ![64, 1024, 2048]⟩
abbrev S64x20x2048 : Shape := ⟨3, ![64, 20, 2048]⟩
abbrev S64x1x1024 : Shape := ⟨3, ![64, 1, 1024]⟩
abbrev S2x20x2048 : Shape := ⟨3, ![2, 20, 2048]⟩
abbrev S2x1024x2048 : Shape := ⟨3, ![2, 1024, 2048]⟩
abbrev S2x1x1024 : Shape := ⟨3, ![2, 1, 1024]⟩
abbrev S2x20x1024 : Shape := ⟨3, ![2, 20, 1024]⟩
abbrev S2x1024 : Shape := ⟨2, ![2, 1024]⟩

abbrev nBuf : Space → Nat
  | .hbm => 4
  | .vmem => 6
  | .smem => 0
  | _ => 0

abbrev bufTy : (tb : Table) → Fin (tcTables nBuf tb) → BufTy
  | .hbm, ⟨0, _⟩ => ⟨S1280x2048, .f32⟩
  | .hbm, ⟨1, _⟩ => ⟨S64x1024x2048, .f32⟩
  | .hbm, ⟨2, _⟩ => ⟨S64x20x2048, .f32⟩
  | .hbm, ⟨3, _⟩ => ⟨S64x1x1024, .f32⟩
  | .local _ .vmem, ⟨0, _⟩ => ⟨S2x20x2048, .f32⟩
  | .local _ .vmem, ⟨1, _⟩ => ⟨S2x20x2048, .f32⟩
  | .local _ .vmem, ⟨2, _⟩ => ⟨S2x1024x2048, .f32⟩
  | .local _ .vmem, ⟨3, _⟩ => ⟨S2x1024x2048, .f32⟩
  | .local _ .vmem, ⟨4, _⟩ => ⟨S2x1x1024, .f32⟩
  | .local _ .vmem, ⟨5, _⟩ => ⟨S2x1x1024, .f32⟩
  | _, _ => ⟨S1280x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x20x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S1280x2048_S64x20x2048 : S1280x2048.ShapeCasts S64x20x2048
  inb_S2x20x2048_S2x20x2048_0_0_0 : ∀ a, (![0, 0, 0] : Fin 3 → Nat) a + S2x20x2048.size a ≤ S2x20x2048.size a
  h_S2x20x2048 : 0 < S2x20x2048.numel
  shapeCasts_S2x20x2048_S2x20x2048 : S2x20x2048.ShapeCasts S2x20x2048
  inb_S2x1024x2048_S2x1024x2048_0_0_0 : ∀ a, (![0, 0, 0] : Fin 3 → Nat) a + S2x1024x2048.size a ≤ S2x1024x2048.size a
  h_S2x1024x2048 : 0 < S2x1024x2048.numel
  reduces_S2x20x1024_S2x1024 : S2x20x1024.Reduces [1] S2x1024
  shapeCasts_S2x1024_S2x1x1024 : S2x1024.ShapeCasts S2x1x1024
  inb_S2x1x1024_S2x1x1024_0_0_0 : ∀ a, (![0, 0, 0] : Fin 3 → Nat) a + S2x1x1024.size a ≤ S2x1x1024.size a
  h_S2x1x1024 : 0 < S2x1x1024.numel
  dot_S2x20x2048_S2x1024x2048_S2x20x1024_2_2_1_1_0_0_wf : DotDims.WF S2x20x2048 S2x1024x2048 S2x20x1024 [2] [2] [1] [1] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x20x2048.size a ≤ S64x20x2048.size a
  hwx0_0 : ∀ i : grid0.Coords, EltTy.bits .f32 = 32 ∨ (Rect.block (s := S64x20x2048) S2x20x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x1024x2048.size a ≤ S64x1024x2048.size a
  hwx0_1 : ∀ i : grid0.Coords, EltTy.bits .f32 = 32 ∨ (Rect.block (s := S64x1024x2048) S2x1024x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2x1x1024.size a ≤ S64x1x1024.size a
  hwx0_2 : ∀ i : grid0.Coords, EltTy.bits .f32 = 32 ∨ (Rect.block (s := S64x1x1024) S2x1x1024.size (cc0_transform_2 i) (hinb0_2 i)).WholeWords (EltTy.packing .f32)

variable [Facts₀]

def dot_S2x20x2048_S2x1024x2048_S2x20x1024_2_2_1_1_0_0 : DotDims S2x20x2048 S2x1024x2048 S2x20x1024 where
  lhsContracting := [2]
  rhsContracting := [2]
  lhsNonContracting := [1]
  rhsNonContracting := [1]
  lhsBatch := [0]
  rhsBatch := [0]
  wf := dot_S2x20x2048_S2x1024x2048_S2x20x1024_2_2_1_1_0_0_wf

abbrev win0_0 : Pipeline.Window sig grid0 :=
  Pipeline.Window.ofSpec (Memref.whole main_v0) S2x20x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2x1024x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S2x1x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S1280x2048 : Shape := ⟨2, ![1280, 2048]⟩
abbrev S64x1024x2048 : Shape := ⟨3, ![64, 1024, 2048]⟩
abbrev S64x20x2048 : Shape := ⟨3, ![64, 20, 2048]⟩
abbrev S64x20x1024 : Shape := ⟨3, ![64, 20, 1024]⟩
abbrev S_ : Shape := ⟨0, ![]⟩
abbrev S64x1024 : Shape := ⟨2, ![64, 1024]⟩
abbrev S64x1x1024 : Shape := ⟨3, ![64, 1, 1024]⟩

abbrev nBuf : Space → Nat
  | .hbm => 7
  | .vmem => 0
  | .smem => 0
  | _ => 0

abbrev bufTy : (tb : Table) → Fin (tcTables nBuf tb) → BufTy
  | .hbm, ⟨0, _⟩ => ⟨S1280x2048, .f32⟩
  | .hbm, ⟨1, _⟩ => ⟨S64x1024x2048, .f32⟩
  | .hbm, ⟨2, _⟩ => ⟨S64x20x2048, .f32⟩
  | .hbm, ⟨3, _⟩ => ⟨S64x20x1024, .f32⟩
  | .hbm, ⟨4, _⟩ => ⟨S_, .f32⟩
  | .hbm, ⟨5, _⟩ => ⟨S64x1024, .f32⟩
  | .hbm, ⟨6, _⟩ => ⟨S64x1x1024, .f32⟩
  | _, _ => ⟨S1280x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]

class Facts₀ : Prop where
  shapeCasts_S1280x2048_S64x20x2048 : S1280x2048.ShapeCasts S64x20x2048
  reducesTo_S64x20x1024_S64x1024_d1 : S64x20x1024.ReducesTo [1] S64x1024
  h_S_ : 0 < S_.numel
  bcast_S64x1024_S64x1x1024_0_2 : S64x1024.BroadcastsInDim S64x1x1024 (![0, 2] : Fin 2 → Fin S64x1x1024.rank)
  dot_S64x20x2048_S64x1024x2048_S64x20x1024_2_2_1_1_0_0_wf : DotDims.WF S64x20x2048 S64x1024x2048 S64x20x1024 [2] [2] [1] [1] [0] [0]

variable [Facts₀]

def dot_S64x20x2048_S64x1024x2048_S64x20x1024_2_2_1_1_0_0 : DotDims S64x20x2048 S64x1024x2048 S64x20x1024 where
  lhsContracting := [2]
  rhsContracting := [2]
  lhsNonContracting := [1]
  rhsNonContracting := [1]
  lhsBatch := [0]
  rhsBatch := [0]
  wf := dot_S64x20x2048_S64x1024x2048_S64x20x1024_2_2_1_1_0_0_wf

class Facts : Prop extends Facts₀ where

variable [Facts]
-- ==== Proof.RegionMax.lean ====
/-
  The function both programs compute, stated once over the two argument arrays.

  The first argument is a flat table of region embeddings, 1280 rows of 2048 features: batch `b` owns the twenty
  consecutive rows `20·b`, …, `20·b + 19`, one per region. The second holds, for each of the 64 batches, 1024 word
  embeddings of 2048 features. The SCORE of region `r` against word `l` in batch `b` is the inner product of the two
  embeddings over the 2048 features, and the result at `(b, 0, l)` is the greatest of the twenty scores of word `l`,
  taken from `-∞` (the pattern `0xFF800000`) upwards.

  On the extended reals a sum is the same in any order and any grouping, and so is a maximum, so nothing here depends
  on how either program tiles the work; no entry is asked to be finite.
-/
import Idealize.ShloMosaic.PureOps.Ideal
import Idealize.ShloMosaic.Lib.ValueIdx

noncomputable section

open scoped BigOperators

namespace Cert.RegionMax

open Idealize.ShloMosaic Idealize.ShloMosaic.ValueIdx

/-- Region `r` of batch `b` is row `20·b + r` of the flat table. -/
def regionRow (b : Fin 64) (r : Fin 20) : Fin 1280 :=
  ⟨b.val * 20 + r.val, by have hb := b.isLt; have hr := r.isLt; omega⟩

theorem regionRow_val (b : Fin 64) (r : Fin 20) : (regionRow b r).val = b.val * 20 + r.val := rfl

/-- The score of region `r` against word `l` in batch `b`: the inner product over the 2048 features. -/
def score (x0 : FVec Ideal ⟨2, ![1280, 2048]⟩ .f32) (x1 : FVec Ideal ⟨3, ![64, 1024, 2048]⟩ .f32)
    (b : Fin 64) (r : Fin 20) (l : Fin 1024) : EReal :=
  ∑ k : Fin 2048, x0 (ix2 (regionRow b r) k) * x1 (ix3 b l k)

/-- The result array: at `(b, 0, l)` the greatest score of word `l` over the twenty regions of batch `b`, from `-∞`. -/
def pooled (x0 : FVec Ideal ⟨2, ![1280, 2048]⟩ .f32) (x1 : FVec Ideal ⟨3, ![64, 1024, 2048]⟩ .f32) :
    FVec Ideal ⟨3, ![64, 1, 1024]⟩ .f32 := fun i =>
  (Finset.univ : Finset (Fin 20)).fold max (Ideal.ofBits .f32 0xFF800000#32) fun r => score x0 x1 (i 0) r (i 2)

theorem pooled_apply (x0 : FVec Ideal ⟨2, ![1280, 2048]⟩ .f32) (x1 : FVec Ideal ⟨3, ![64, 1024, 2048]⟩ .f32)
    (i : (⟨3, ![64, 1, 1024]⟩ : Shape).Idx) :
    pooled x0 x1 i
      = (Finset.univ : Finset (Fin 20)).fold max (Ideal.ofBits .f32 0xFF800000#32) fun r => score x0 x1 (i 0) r (i 2) := rfl

end Cert.RegionMax

end
-- ==== Proof.RefRegionMax.lean ====
/-
  The reference computes `RegionMax.pooled`.

  Its program reshapes the flat table to [64, 20, 2048] (row `20·b + r` becomes `(b, r)`), contracts it with the word
  embeddings over the features batch by batch, takes the maximum over the region axis from `-∞`, and re-inserts a unit
  axis. Read at an index `(b, 0, l)`: the unit axis is dropped, the maximum over one axis is the maximum over that
  axis's twenty coordinates of the scores at `(b, r, l)`, each score is the sum over the features of the products, and
  the reshape's entry `(b, r, k)` is the flat table's `(20·b + r, k)` since `((20·b + r)·2048 + k)` divided by 2048
  is `20·b + r` with remainder `k`.
-/
import proofs.«122223_j1202590843020_2_alg».proof.Proof.Gen.ReferenceIdeal.Read
import proofs.«122223_j1202590843020_2_alg».proof.Proof.RegionMax
import Idealize.ShloMosaic.PureOps.Reduce
import Idealize.ShloMosaic.PureOps.Ideal.Laws

noncomputable section

open scoped BigOperators

namespace Cert.RefRegionMax

open Cert.ReferenceIdeal Cert.ReferenceIdeal.Gen Cert.ReferenceIdeal.Read
open Idealize.ShloMosaic Idealize.ShloMosaic.ValueIdx Cert.RegionMax

/-- Dropping the region axis of [64, 20, 1024] leaves [64, 1024]. -/
theorem reduces_regions : S64x20x1024.Reduces [1] S64x1024 := by decide

/-- The score array's entry over `(b, l)` with region `r` inserted is `(b, r, l)`. -/
theorem lift_regions (j : S64x1024.Idx) (r : Fin 20) :
    reduces_regions.lift j r = (ix3 (j 0) r (j 1) : S64x20x1024.Idx) := by
  funext a; apply Fin.ext
  match a with
  | ⟨0, _⟩ => rfl
  | ⟨1, _⟩ => rfl
  | ⟨2, _⟩ => rfl

/-- The contraction's entry `(b, r, l)` is the score of region `r` against word `l` in batch `b`. -/
theorem scores_apply (x0 : (⟨S1280x2048, .f32⟩ : BufTy).Contents (Elt Ideal)) (x1 : (⟨S64x1024x2048, .f32⟩ : BufTy).Contents (Elt Ideal))
    (b : Fin 64) (r : Fin 20) (l : Fin 1024) :
    val_main_v1 (F := Ideal) x0 x1 (ix3 b r l) = score x0 x1 b r l := by
  rw [val_main_v1_apply]
  unfold score
  refine Finset.sum_congr rfl fun k _ => ?_
  rw [val_main_v0_apply]
  have hk : k.val < 2048 := k.isLt
  have hr : r.val < 20 := r.isLt
  have e0 : idx_main_v0 (lidx_main_v1 (ix3 b r l) k) = ix2 (regionRow b r) k := by
    funext a; apply Fin.ext
    match a with
    | ⟨0, _⟩ => show ((b.val * 20 + r.val) * 2048 + k.val) / 2048 = b.val * 20 + r.val; omega
    | ⟨1, _⟩ => show ((b.val * 20 + r.val) * 2048 + k.val) % 2048 = k.val; omega
  have e1 : ridx_main_v1 (ix3 b r l) k = ix3 b l k := by
    funext a; apply Fin.ext
    match a with
    | ⟨0, _⟩ => rfl
    | ⟨1, _⟩ => rfl
    | ⟨2, _⟩ => rfl
  rw [e0, e1]

/-- The reference's last stage, as a whole array, is `pooled` of the two arguments. -/
theorem val_main_v3_eq_pooled (x0 : (⟨S1280x2048, .f32⟩ : BufTy).Contents (Elt Ideal)) (x1 : (⟨S64x1024x2048, .f32⟩ : BufTy).Contents (Elt Ideal)) :
    val_main_v3 (F := Ideal) x0 x1 = pooled x0 x1 := by
  funext i
  rw [val_main_v3_apply, pooled_apply]
  unfold val_main_v2
  rw [Host.reduce_eq_fold_single (FloatOps.maximumf (F := Ideal) (φ := .f32)) (val_main_v1 (F := Ideal) x0 x1) (val_main_cst (F := Ideal))
    reducesTo_S64x20x1024_S64x1024_d1 reduces_regions h_S_ (idx_main_v3 i)]
  have hf : (val_main_v1 (F := Ideal) x0 x1 ∘ reduces_regions.lift (idx_main_v3 i)) = fun r : Fin 20 => score x0 x1 (i 0) r (i 2) := by
    funext r
    show val_main_v1 (F := Ideal) x0 x1 (reduces_regions.lift (idx_main_v3 i) r) = _
    exact (congrArg (val_main_v1 (F := Ideal) x0 x1) (lift_regions (idx_main_v3 i) r)).trans
      (scores_apply x0 x1 (i 0) r (i 2))
  rw [hf]
  rfl

end Cert.RefRegionMax

end
-- ==== Proof.BlockRegionMax.lean ====
/-
  What the kernel's body computes from one pair of blocks.

  At a grid point the body holds two batches: a [2, 20, 2048] block of region embeddings and a [2, 1024, 2048] block of
  word embeddings. It contracts them over the features batch by batch into a zero accumulator, takes the maximum over
  the region axis from `-∞`, and views the [2, 1024] result as [2, 1, 1024]. Read at `(p, 0, l)`: the unit axis carries
  no position (the row-major positions `p·1024 + l` agree), the maximum over one axis is the maximum over that axis's
  twenty coordinates, the matrix product into zero is the bare sum of products over the 2048 features, and the cast of
  the first block to its own shape is the block. So the entry is the greatest, over the twenty regions `r`, of the
  inner product of the block's region `(p, r)` with its word `(p, l)`.
-/
import proofs.«122223_j1202590843020_2_alg».proof.Proof.Gen.KernelIdeal.Skeleton
import Idealize.ShloMosaic.Lib.Pipeline.Value
import Idealize.ShloMosaic.Lib.ValueIdx
import Idealize.ShloMosaic.PureOps.Reduce
import Idealize.ShloMosaic.PureOps.Ideal.Laws

noncomputable section

open scoped BigOperators

namespace Cert.BlockRegionMax

open Cert.KernelIdeal Cert.KernelIdeal.Gen
open Idealize.ShloMosaic Idealize.ShloMosaic.ValueIdx

/-- Within a pair of blocks: the inner product of region `(p, r)` with word `(p, l)` over the 2048 features. -/
def blockScore (v0 : Vec Ideal S2x20x2048 .f32) (v2 : Vec Ideal S2x1024x2048 .f32) (p : Fin 2) (r : Fin 20) (l : Fin 1024) : EReal :=
  ∑ k : Fin 2048, v0 (ix3 p r k) * v2 (ix3 p l k)

/-! ## Where the product reads its operands: batch with batch, region and word free, the features contracted -/

theorem lhs_batch (i : S2x20x1024.Idx) (q : dot_S2x20x2048_S2x1024x2048_S2x20x1024_2_2_1_1_0_0.contr.Idx) :
    (dot_S2x20x2048_S2x1024x2048_S2x20x1024_2_2_1_1_0_0.lhsIdx i q 0).val = (i 0).val := by
  unfold DotDims.lhsIdx
  rw [dif_pos (show (0 : Fin S2x20x2048.rank) ∈ dot_S2x20x2048_S2x1024x2048_S2x20x1024_2_2_1_1_0_0.lhsBatch by decide)]
  rfl
theorem lhs_region (i : S2x20x1024.Idx) (q : dot_S2x20x2048_S2x1024x2048_S2x20x1024_2_2_1_1_0_0.contr.Idx) :
    (dot_S2x20x2048_S2x1024x2048_S2x20x1024_2_2_1_1_0_0.lhsIdx i q 1).val = (i 1).val := by
  unfold DotDims.lhsIdx
  rw [dif_neg (show ¬(1 : Fin S2x20x2048.rank) ∈ dot_S2x20x2048_S2x1024x2048_S2x20x1024_2_2_1_1_0_0.lhsBatch by decide), dif_pos (show (1 : Fin S2x20x2048.rank) ∈ dot_S2x20x2048_S2x1024x2048_S2x20x1024_2_2_1_1_0_0.lhsNonContracting by decide)]
  rfl
theorem lhs_feature (i : S2x20x1024.Idx) (q : dot_S2x20x2048_S2x1024x2048_S2x20x1024_2_2_1_1_0_0.contr.Idx) :
    (dot_S2x20x2048_S2x1024x2048_S2x20x1024_2_2_1_1_0_0.lhsIdx i q 2).val = (q ⟨0, by decide⟩).val :=
  dot_S2x20x2048_S2x1024x2048_S2x20x1024_2_2_1_1_0_0.lhsIdx_val_of_single rfl i q
theorem rhs_batch (i : S2x20x1024.Idx) (q : dot_S2x20x2048_S2x1024x2048_S2x20x1024_2_2_1_1_0_0.contr.Idx) :
    (dot_S2x20x2048_S2x1024x2048_S2x20x1024_2_2_1_1_0_0.rhsIdx i q 0).val = (i 0).val := by
  unfold DotDims.rhsIdx
  rw [dif_pos (show (0 : Fin S2x1024x2048.rank) ∈ dot_S2x20x2048_S2x1024x2048_S2x20x1024_2_2_1_1_0_0.rhsBatch by decide)]
  rfl
theorem rhs_word (i : S2x20x1024.Idx) (q : dot_S2x20x2048_S2x1024x2048_S2x20x1024_2_2_1_1_0_0.contr.Idx) :
    (dot_S2x20x2048_S2x1024x2048_S2x20x1024_2_2_1_1_0_0.rhsIdx i q 1).val = (i 2).val := by
  unfold DotDims.rhsIdx
  rw [dif_neg (show ¬(1 : Fin S2x1024x2048.rank) ∈ dot_S2x20x2048_S2x1024x2048_S2x20x1024_2_2_1_1_0_0.rhsBatch by decide), dif_pos (show (1 : Fin S2x1024x2048.rank) ∈ dot_S2x20x2048_S2x1024x2048_S2x20x1024_2_2_1_1_0_0.rhsNonContracting by decide)]
  rfl
theorem rhs_feature (i : S2x20x1024.Idx) (q : dot_S2x20x2048_S2x1024x2048_S2x20x1024_2_2_1_1_0_0.contr.Idx) :
    (dot_S2x20x2048_S2x1024x2048_S2x20x1024_2_2_1_1_0_0.rhsIdx i q 2).val = (q ⟨0, by decide⟩).val :=
  dot_S2x20x2048_S2x1024x2048_S2x20x1024_2_2_1_1_0_0.rhsIdx_val_of_single rfl i q

/-- The batched product into a zero accumulator, at `(p, r, l)`: the sum over the features of the products. -/
theorem scores_apply (a : FVec Ideal S2x20x2048 .f32) (w : FVec Ideal S2x1024x2048 .f32) (p : Fin 2) (r : Fin 20) (l : Fin 1024) :
    matmul (F := Ideal) dot_S2x20x2048_S2x1024x2048_S2x20x1024_2_2_1_1_0_0 none a w (constant S2x20x1024 .f32 0x00000000#32) (ix3 p r l)
      = ∑ k : Fin 2048, a (ix3 p r k) * w (ix3 p l k) := by
  simp only [matmul]
  rw [Ideal.matmul_constant_zero_apply, ← Equiv.sum_comp (contrEquiv1 dot_S2x20x2048_S2x1024x2048_S2x20x1024_2_2_1_1_0_0 2048 rfl rfl).symm]
  refine Finset.sum_congr rfl fun k _ => ?_
  have hk := contrEquiv1_symm_val dot_S2x20x2048_S2x1024x2048_S2x20x1024_2_2_1_1_0_0 2048 rfl rfl k
  have el : dot_S2x20x2048_S2x1024x2048_S2x20x1024_2_2_1_1_0_0.lhsIdx (ix3 p r l) ((contrEquiv1 dot_S2x20x2048_S2x1024x2048_S2x20x1024_2_2_1_1_0_0 2048 rfl rfl).symm k) = ix3 p r k := funext fun a => Fin.ext (by
    match a with
    | ⟨0, _⟩ => exact lhs_batch _ _
    | ⟨1, _⟩ => exact lhs_region _ _
    | ⟨2, _⟩ => exact (lhs_feature _ _).trans hk)
  have er : dot_S2x20x2048_S2x1024x2048_S2x20x1024_2_2_1_1_0_0.rhsIdx (ix3 p r l) ((contrEquiv1 dot_S2x20x2048_S2x1024x2048_S2x20x1024_2_2_1_1_0_0 2048 rfl rfl).symm k) = ix3 p l k := funext fun a => Fin.ext (by
    match a with
    | ⟨0, _⟩ => exact rhs_batch _ _
    | ⟨1, _⟩ => exact rhs_word _ _
    | ⟨2, _⟩ => exact (rhs_feature _ _).trans hk)
  rw [el, er]

/-! ## The maximum over the region axis, and the unit axis -/

/-- The [2, 20, 1024] entry over `(p, l)` with region `r` inserted is `(p, r, l)`. -/
theorem lift_regions (j : S2x1024.Idx) (r : Fin 20) :
    reduces_S2x20x1024_S2x1024.lift j r = (ix3 (j 0) r (j 1) : S2x20x1024.Idx) := by
  funext a; apply Fin.ext
  match a with
  | ⟨0, _⟩ => rfl
  | ⟨1, _⟩ => rfl
  | ⟨2, _⟩ => rfl

/-- The maximum over the region axis from `-∞`, at `(p, l)`: the greatest of the twenty entries `(p, r, l)`. -/
theorem max_regions_apply (s : FVec Ideal S2x20x1024 .f32) (p : Fin 2) (l : Fin 1024) :
    multiReduction (F := Ideal) .maximumf [1] S2x1024 s 0xFF800000#32 reduces_S2x20x1024_S2x1024 (.inl rfl) rfl (ix2 p l)
      = (Finset.univ : Finset (Fin 20)).fold max (Ideal.ofBits .f32 0xFF800000#32) fun r => s (ix3 p r l) := by
  refine (Ideal.multiReduction_maximumf_single s _ reduces_S2x20x1024_S2x1024 _ _ (ix2 p l)).trans ?_
  have hf : (s ∘ reduces_S2x20x1024_S2x1024.lift (ix2 p l)) = fun r : Fin 20 => s (ix3 p r l) := by
    funext r
    exact congrArg s (lift_regions (ix2 p l) r)
  rw [hf]
  rfl

/-- A [2, 1024] array viewed as [2, 1, 1024], at `(p, 0, l)`, is the array at `(p, l)`. -/
theorem unit_axis_apply (w : FVec Ideal S2x1024 .f32) (p : Fin 2) (l : Fin 1024) :
    shapeCast S2x1x1024 w shapeCasts_S2x1024_S2x1x1024 (ix3 p (0 : Fin 1) l) = w (ix2 p l) :=
  shapeCast_apply w shapeCasts_S2x1024_S2x1x1024 (ix3 p (0 : Fin 1) l) (ix2 p l) (by
    rewrite [Shape.rowMajor_val_two, Shape.rowMajor_val_three]
    show p.val * 1024 + l.val = (p.val * 1 + 0) * 1024 + l.val
    omega)

/-! ## The body's payload -/

/-- What the body stores, at `(p, 0, l)`: the greatest, over the twenty regions, of the block scores of word `l` in
    the block's batch `p`. -/
theorem pay_apply (v0 : Vec Ideal S2x20x2048 .f32) (v2 : Vec Ideal S2x1024x2048 .f32) (p : Fin 2) (l : Fin 1024) :
    k0_pay1 (F := Ideal) v0 v2 (ix3 p (0 : Fin 1) l)
      = (Finset.univ : Finset (Fin 20)).fold max (Ideal.ofBits .f32 0xFF800000#32) fun r => blockScore v0 v2 p r l := by
  unfold k0_pay1
  refine (unit_axis_apply _ p l).trans ?_
  refine (max_regions_apply _ p l).trans ?_
  have hf : (fun r : Fin 20 => matmul (F := Ideal) (φ₁ := .f32) (φ₂ := .f32) dot_S2x20x2048_S2x1024x2048_S2x20x1024_2_2_1_1_0_0 none
      (shapeCast S2x20x2048 v0 shapeCasts_S2x20x2048_S2x20x2048) v2
      (constant S2x20x1024 .f32 0x00000000#32) (ix3 p r l)) = fun r => blockScore v0 v2 p r l := by
    funext r
    rw [shapeCast_self]
    exact scores_apply v0 v2 p r l
  exact congrArg (fun f => (Finset.univ : Finset (Fin 20)).fold max (Ideal.ofBits .f32 0xFF800000#32) f) hf

end Cert.BlockRegionMax

end
-- ==== Proof.ArrayRegionMax.lean ====
/-
  From the blocks the grid points write to the whole result array.

  The grid has 32 points. Point `t` is handed block `(t, 0, 0)` of each of the three arrays: batches `2t` and `2t + 1`
  of the region embeddings (the flat table regrouped as [64, 20, 2048], so that entry `(b, r, k)` is the table's
  `(20·b + r, k)`), the same two batches of the word embeddings, and the same two batches of the result. An entry
  `(p, ·, ·)` of a block therefore sits in its array at batch `2t + p`, the other coordinates unchanged. With the
  body's payload read at an index this makes what point `t` writes back exactly block `t` of `RegionMax.pooled` of
  the two arguments. Batch `b` of the result lies in the block of point `b / 2`, so the 32 blocks cover the array,
  and the array ends as `pooled` of the arguments.
-/
import proofs.«122223_j1202590843020_2_alg».proof.Proof.Gen.KernelIdeal.Value
import proofs.«122223_j1202590843020_2_alg».proof.Proof.RegionMax
import proofs.«122223_j1202590843020_2_alg».proof.Proof.BlockRegionMax
import Idealize.ShloMosaic.Lib.Pipeline.Value
import Idealize.ShloMosaic.Lib.ValueIdx
import Idealize.ShloMosaic.Lib.StableHlo.Run

noncomputable section

open scoped BigOperators

namespace Cert.ArrayRegionMax

open Cert.KernelIdeal Cert.KernelIdeal.Gen
open Idealize.ShloMosaic Idealize.ShloMosaic.TcCoe Idealize.SL.Sem Idealize.ShloMosaic.ValueIdx
open Idealize.ShloMosaic.Pipeline (Dat)
open Cert.RegionMax Cert.BlockRegionMax

variable (m : (ℓ : Loc nD τ sig) → Buf (Elt Ideal) ℓ) (ρ : Dev nD → PrngReg)

theorem zero_offsets : (![0, 0, 0] : Fin 3 → Nat) = fun _ => 0 := funext fun a => by fin_cases a <;> rfl

/-! ## The regrouped table the first window stages -/

/-- When the region is entered the regrouped array is the first argument reshaped. -/
theorem regrouped_eq (c : Dev nD) :
    (V m c main_v0 : S64x20x2048.Idx → EReal)
      = shapeCast _ (m ((c : Thread nD τ).loc main_arg0)) shapeCasts_S1280x2048_S64x20x2048 := by
  dsimp only [Gen.V, Gen.hostOps0]; after_results; rfl

/-- Its entry `(b, r, k)` is the flat table's `(20·b + r, k)`. -/
theorem regrouped_apply (c : Dev nD) (b : Fin 64) (r : Fin 20) (k : Fin 2048) :
    V m c main_v0 (ix3 b r k) = m ((c : Thread nD τ).loc main_arg0) (ix2 (regionRow b r) k) := by
  refine (congrFun (regrouped_eq m c) (ix3 b r k)).trans ?_
  exact shapeCast_apply _ shapeCasts_S1280x2048_S64x20x2048 (ix3 b r k) (ix2 (regionRow b r) k) (by
    rewrite [Shape.rowMajor_val_two, Shape.rowMajor_val_three]
    show (b.val * 20 + r.val) * 2048 + k.val = (b.val * 20 + r.val) * 2048 + k.val
    rfl)

/-! ## Where the blocks sit -/

/-- Point `t` is handed block `(t, 0, 0)` of each array (decided over the 32 points). -/
theorem block_index : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0 :=
  (by decide +kernel : ∀ t : Fin grid0.N, _)

theorem point_lt (t : Fin cfg0.N) : t.val < 32 := lt_of_lt_of_eq t.isLt N_0

/-- Batch `p` of the pair that starts at batch `b0`. -/
def batchAt (b0 : Nat) (hb : b0 + 1 < 64) (p : Fin 2) : Fin 64 := ⟨b0 + p.val, by have hp := p.isLt; omega⟩

theorem pair_lt (t : Fin cfg0.N) : 2 * t.val + 1 < 64 := by have ht := point_lt t; omega

/-- Entry `(p, r, k)` of the region block at point `t` is the regrouped array's at batch `2t + p`. -/
theorem regions_block (c : Dev nD) (t : Fin cfg0.N) (p : Fin 2) (r : Fin 20) (k : Fin 2048) :
    iblk m c 0 t (ix3 p r k) = V m c main_v0 (ix3 (batchAt (2 * t.val) (pair_lt t) p) r k) := by
  show V m c main_v0 (((cfg0.win 0).blk t).view.emb (ix3 p r k)) = _
  refine congrArg (V m c main_v0) (funext fun a => Fin.ext ?_)
  obtain ⟨e0, e1, e2, -⟩ := block_index t
  match a with
  | ⟨0, _⟩ => show win0_0.index t (0 : Fin 3) * 2 + 1 * p.val = 2 * t.val + p.val; omega
  | ⟨1, _⟩ => show win0_0.index t (1 : Fin 3) * 20 + 1 * r.val = r.val; omega
  | ⟨2, _⟩ => show win0_0.index t (2 : Fin 3) * 2048 + 1 * k.val = k.val; omega

/-- Entry `(p, l, k)` of the word block at point `t` is the second argument's at batch `2t + p`. -/
theorem words_block (c : Dev nD) (t : Fin cfg0.N) (p : Fin 2) (l : Fin 1024) (k : Fin 2048) :
    iblk m c 1 t (ix3 p l k) = m ((c : Thread nD τ).loc main_arg1) (ix3 (batchAt (2 * t.val) (pair_lt t) p) l k) := by
  refine Eq.trans ?_ (congrFun (V_main_arg1 m c) _)
  show V m c main_arg1 (((cfg0.win 1).blk t).view.emb (ix3 p l k)) = _
  refine congrArg (V m c main_arg1) (funext fun a => Fin.ext ?_)
  obtain ⟨-, -, -, e0, e1, e2, -⟩ := block_index t
  match a with
  | ⟨0, _⟩ => show win0_1.index t (0 : Fin 3) * 2 + 1 * p.val = 2 * t.val + p.val; omega
  | ⟨1, _⟩ => show win0_1.index t (1 : Fin 3) * 1024 + 1 * l.val = l.val; omega
  | ⟨2, _⟩ => show win0_1.index t (2 : Fin 3) * 2048 + 1 * k.val = k.val; omega

/-! ## One point's write is a block of `pooled` -/

/-- Over plain arrays: if a pair of blocks holds batches `b0`, `b0 + 1` of the table (regrouped) and of the words,
    the body's payload at a block entry is `pooled` at the entry's place in the array. -/
theorem block_entry (x0 : FVec Ideal ⟨2, ![1280, 2048]⟩ .f32) (x1 : FVec Ideal ⟨3, ![64, 1024, 2048]⟩ .f32)
    (v0 : Vec Ideal S2x20x2048 .f32) (v2 : Vec Ideal S2x1024x2048 .f32) (b0 : Nat) (hb : b0 + 1 < 64)
    (h0 : ∀ (p : Fin 2) (r : Fin 20) (k : Fin 2048), v0 (ix3 p r k) = x0 (ix2 (regionRow (batchAt b0 hb p) r) k))
    (h2 : ∀ (p : Fin 2) (l : Fin 1024) (k : Fin 2048), v2 (ix3 p l k) = x1 (ix3 (batchAt b0 hb p) l k))
    (y : S2x1x1024.Idx) (i : (⟨3, ![64, 1, 1024]⟩ : Shape).Idx)
    (hi0 : (i 0).val = b0 + (y 0).val) (hi2 : (i 2).val = (y 2).val) :
    k0_pay1 (F := Ideal) v0 v2 y = pooled x0 x1 i := by
  obtain ⟨p, u, l, rfl⟩ : ∃ (p : Fin 2) (u : Fin 1) (l : Fin 1024), y = ix3 p u l := ⟨y 0, y 1, y 2, eq_ix3 y⟩
  obtain rfl : u = 0 := Subsingleton.elim _ _
  have hb0 : i 0 = batchAt b0 hb p := Fin.ext hi0
  have hl : i 2 = l := Fin.ext hi2
  rw [pay_apply, pooled_apply, hb0, hl]
  refine congrArg (fun f => (Finset.univ : Finset (Fin 20)).fold max (Ideal.ofBits .f32 0xFF800000#32) f) (funext fun r => ?_)
  unfold blockScore score
  refine Finset.sum_congr rfl fun k _ => ?_
  rw [h0, h2]

/-- What point `t` writes back is block `t` of `pooled` of the two arguments. -/
theorem flushed_eq (c : Dev nD) (t : Fin cfg0.N) :
    (dats m 0 c).flushed 2 t
      = ((cfg0.win 2).blk t).view.read (Elt Ideal) (pooled (m ((c : Thread nD τ).loc main_arg0)) (m ((c : Thread nD τ).loc main_arg1))) := by
  rw [Cert.KernelIdeal.Value.flushed2]
  unfold out0_2
  rw [View.canon_unit_zero zero_offsets]
  simp only [View.ld_unit_zero (S := S2x20x2048) zero_offsets, View.ld_unit_zero (S := S2x1024x2048) zero_offsets]
  obtain ⟨-, -, -, -, -, -, e0, e1, e2⟩ := block_index t
  funext y
  show k0_pay1 (F := Ideal) (iblk m c 0 t) (iblk m c 1 t) y
    = pooled (m ((c : Thread nD τ).loc main_arg0)) (m ((c : Thread nD τ).loc main_arg1)) (((cfg0.win 2).blk t).view.emb y)
  exact block_entry (m ((c : Thread nD τ).loc main_arg0)) (m ((c : Thread nD τ).loc main_arg1)) (iblk m c 0 t) (iblk m c 1 t)
    (2 * t.val) (pair_lt t)
    (fun p r k => (regions_block m c t p r k).trans (regrouped_apply m c (batchAt (2 * t.val) (pair_lt t) p) r k))
    (fun p l k => words_block m c t p l k)
    y (((cfg0.win 2).blk t).view.emb y)
    (by show win0_2.index t (0 : Fin 3) * 2 + 1 * (y 0).val = 2 * t.val + (y 0).val; omega)
    (by show win0_2.index t (2 : Fin 3) * 1024 + 1 * (y 2).val = (y 2).val; omega)

/-! ## The blocks cover the array -/

/-- An index of the result is in point `t`'s block iff each coordinate is in the block's range on its axis. -/
theorem mem_block (t : Fin cfg0.N) (i : S64x1x1024.Idx) :
    i ∈ ((cfg0.win 2).blk t).view.set
      ↔ ∀ a : Fin 3, win0_2.index t a * S2x1x1024.size a ≤ (i a).val ∧ (i a).val < win0_2.index t a * S2x1x1024.size a + S2x1x1024.size a := by
  show i ∈ ((View.whole main_v1).slice (win0_2.rect t)).set ↔ _
  rw [View.set_slice_whole, Rect.mem_set_unit]
  exact Iff.rfl

/-- Batch `b` of the result lies in the block of point `b / 2`. -/
theorem cover (i : S64x1x1024.Idx) :
    ∃ t : Fin cfg0.N, (cfg0.win 2).flush t = true ∧ i ∈ ((cfg0.win 2).blk t).view.set := by
  have h0 : (i 0).val < 64 := (i 0).isLt
  have h1 : (i 1).val < 1 := (i 1).isLt
  have h2 : (i 2).val < 1024 := (i 2).isLt
  obtain ⟨t, ht⟩ : ∃ t : Fin cfg0.N, t.val = (i 0).val / 2 :=
    ⟨⟨(i 0).val / 2, by show (i 0).val / 2 < grid0.N; rw [N_0]; omega⟩, rfl⟩
  obtain ⟨-, -, -, -, -, -, e0, e1, e2⟩ := block_index t
  refine ⟨t, flush0_2 t, ?_⟩
  rw [mem_block]
  intro a
  match a with
  | ⟨0, _⟩ => show win0_2.index t (0 : Fin 3) * 2 ≤ (i 0).val ∧ (i 0).val < win0_2.index t (0 : Fin 3) * 2 + 2; omega
  | ⟨1, _⟩ => show win0_2.index t (1 : Fin 3) * 1 ≤ (i 1).val ∧ (i 1).val < win0_2.index t (1 : Fin 3) * 1 + 1; omega
  | ⟨2, _⟩ => show win0_2.index t (2 : Fin 3) * 1024 ≤ (i 2).val ∧ (i 2).val < win0_2.index t (2 : Fin 3) * 1024 + 1024; omega

/-! ## The array after the run, and the run -/

/-- After the run the result array is `pooled` of the two arguments. -/
theorem final (c : Dev nD) :
    (dats m 0 c).arrAt 2 cfg0.N = pooled (m ((c : Thread nD τ).loc main_arg0)) (m ((c : Thread nD τ).loc main_arg1)) :=
  (dats m 0 c).arrAt_eq_of_cover 2 _ (fun t _ => flushed_eq m c t) cover

/-- Every weakly fair execution of the kernel's program terminates with the result array at `pooled` of the
    arguments and the arguments unchanged. -/
theorem run : θ_run defs (onTc (τ := τ) (main (F := Ideal))) ⟨m, fun _ => 0, ρ⟩ fun r => ∀ c : Dev nD,
      r.2.mem ((c : Thread nD τ).loc main_v1) = pooled (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩)
    (Cert.KernelIdeal.Value.run_blocks m ρ)

end Cert.ArrayRegionMax

end
-- ==== Proof.lean ====
/-
  Region/word similarity pooled over the regions: the kernel against its reference.

  For each of 64 batches and each of its 1024 words both programs compute the greatest, over the batch's twenty
  regions, of the inner product over 2048 features of the region's embedding with the word's (`RegionMax.pooled`).
  The reference regroups the flat table of regions, contracts it with the words batch by batch in one product, and
  takes the maximum over the region axis from `-∞`. The kernel regroups the table the same way, walks 32 grid points
  of two batches each, contracts each pair of blocks into a zero accumulator and takes the maximum over the region
  axis there, from `-∞` too; the blocks it writes tile the result.

  At the ideal values these differ only in spelling. A product accumulated into zero is the bare sum of products
  (`0 + x = x` on every extended real), a maximum over one axis is the maximum over that axis's coordinates whichever
  program takes it, and placing a block's entry in its array is arithmetic on the batch number. No step moves a
  factor across a sum or cancels anything, so no entry has to be finite and the precondition is never opened.

  The frames of the two kernel programs are their frame theorems; the reference's is its run with the result dropped.
  The idealization rewrote no operation, so there is nothing to preserve.
-/
import proofs.«122223_j1202590843020_2_alg».proof.Defs
import proofs.«122223_j1202590843020_2_alg».proof.Proof.Gen.Kernel
import proofs.«122223_j1202590843020_2_alg».proof.Proof.Gen.Kernel.Skeleton
import proofs.«122223_j1202590843020_2_alg».proof.Proof.Gen.Kernel.Launch
import proofs.«122223_j1202590843020_2_alg».proof.Proof.Gen.Kernel.Points
import proofs.«122223_j1202590843020_2_alg».proof.Proof.Gen.Kernel.Frame
import proofs.«122223_j1202590843020_2_alg».proof.Proof.Gen.KernelIdeal
import proofs.«122223_j1202590843020_2_alg».proof.Proof.Gen.KernelIdeal.Skeleton
import proofs.«122223_j1202590843020_2_alg».proof.Proof.Gen.KernelIdeal.Launch
import proofs.«122223_j1202590843020_2_alg».proof.Proof.Gen.KernelIdeal.Points
import proofs.«122223_j1202590843020_2_alg».proof.Proof.Gen.KernelIdeal.Frame
import proofs.«122223_j1202590843020_2_alg».proof.Proof.Gen.ReferenceIdeal
import proofs.«122223_j1202590843020_2_alg».proof.Proof.Gen.Pre_finite_inputs
import proofs.«122223_j1202590843020_2_alg».proof.Proof.Gen.KernelIdeal.Value
import proofs.«122223_j1202590843020_2_alg».proof.Proof.Gen.ReferenceIdeal.Run
import proofs.«122223_j1202590843020_2_alg».proof.Proof.Gen.ReferenceIdeal.Read
import proofs.«122223_j1202590843020_2_alg».proof.Proof.RegionMax
import proofs.«122223_j1202590843020_2_alg».proof.Proof.RefRegionMax
import proofs.«122223_j1202590843020_2_alg».proof.Proof.BlockRegionMax
import proofs.«122223_j1202590843020_2_alg».proof.Proof.ArrayRegionMax
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference has no kernel: its frame is its run, the result forgotten. -/
theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories that agree on the two arguments, the kernel's result array ends at `pooled` of them (the blocks
    of the 32 points, put together) and so does the reference's (its last stage read index by index). -/
theorem algebraic : Cert.algebraic_KernelIdeal_ReferenceIdeal := by
  intro m ρ m' ρ' _ hagree
  refine ⟨_, Cert.ArrayRegionMax.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v3_eq, Cert.RefRegionMax.val_main_v3_eq_pooled, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
